-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩

class Facts : Prop where
  bcast_S_S32x272x8192 : S_.BroadcastsInDim S32x272x8192 (![] : Fin 0 → Fin S32x272x8192.rank)
  reducesTo_S32x272x8192_S_d0_1_2 : S32x272x8192.ReducesTo [0, 1, 2] S_
  h_S_ : 0 < S_.numel
  bcast_S_S272x2 : S_.BroadcastsInDim S272x2 (![] : Fin 0 → Fin S272x2.rank)
  reducesTo_S272x2_S_d0_1 : S272x2.ReducesTo [0, 1] S_

variable [Facts]

def fn {F : FTy → Type} [FloatOps F] (main_arg0 : FVec F S32x272x8192 .f32) (main_arg1 : FVec F S272x2 .f32) (main_arg2 : IVec S32 32) : IVec S_ 1 :=
  let main_v0 : FVec F S32x272x8192 .f32 := Host.absf main_arg0
  let main_cst : FVec F S_ .f32 := constant S_ .f32 0x7F800000#32
  let main_v1 : FVec F S32x272x8192 .f32 := broadcastInDim S32x272x8192 ![] bcast_S_S32x272x8192 main_cst
  let main_v2 : IVec S32x272x8192 1 := cmpf .olt main_v0 main_v1
  let main_c : IVec S_ 1 := constantI S_ 1 1#1
  let main_v3 : IVec S_ 1 := (fun x v => Host.reduce IntOp.andi x v reducesTo_S32x272x8192_S_d0_1_2 h_S_) main_v2 main_c
  let main_v4 : FVec F S272x2 .f32 := Host.absf main_arg1
  let main_cst_0 : FVec F S_ .f32 := constant S_ .f32 0x7F800000#32
  let main_v5 : FVec F S272x2 .f32 := broadcastInDim S272x2 ![] bcast_S_S272x2 main_cst_0
  let main_v6 : IVec S272x2 1 := cmpf .olt main_v4 main_v5
  let main_c_1 : IVec S_ 1 := constantI S_ 1 1#1
  let main_v7 : IVec S_ 1 := (fun x v => Host.reduce IntOp.andi x v reducesTo_S272x2_S_d0_1 h_S_) main_v6 main_c_1
  let main_v8 : IVec S_ 1 := andi main_v3 main_v7
  main_v8
-- ==== Kernel.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩
abbrev S32x1 : Shape := ⟨2, ![32, 1]⟩
abbrev S32x2 : Shape := ⟨2, ![32, 2]⟩
abbrev S1x272x2 : Shape := ⟨3, ![1, 272, 2]⟩
abbrev S32x1x2 : Shape := ⟨3, ![32, 1, 2]⟩
abbrev S32x272x2 : Shape := ⟨3, ![32, 272, 2]⟩
abbrev S32x272 : Shape := ⟨2, ![32, 272]⟩
abbrev S32x272x1 : Shape := ⟨3, ![32, 272, 1]⟩
abbrev S32x272x256 : Shape := ⟨3, ![32, 272, 256]⟩

abbrev nBuf : Space → Nat
  | .hbm => 27
  | .vmem => 5
  | .smem => 0
  | _ => 0

abbrev bufTy : (tb : Table) → Fin (tcTables nBuf tb) → BufTy
  | .hbm, ⟨0, _⟩ => ⟨S32x272x8192, .f32⟩
  | .hbm, ⟨1, _⟩ => ⟨S272x2, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x2, .f32⟩
  | .hbm, ⟨12, _⟩ => ⟨S1x272x2, .f32⟩
  | .hbm, ⟨13, _⟩ => ⟨S32x1x2, .f32⟩
  | .hbm, ⟨14, _⟩ => ⟨S32x272x2, .f32⟩
  | .hbm, ⟨15, _⟩ => ⟨S32x272x2, .f32⟩
  | .hbm, ⟨16, _⟩ => ⟨S32x272x2, .f32⟩
  | .hbm, ⟨17, _⟩ => ⟨S32x272x2, .f32⟩
  | .hbm, ⟨18, _⟩ => ⟨S_, .f32⟩
  | .hbm, ⟨19, _⟩ => ⟨S32x272, .f32⟩
  | .hbm, ⟨20, _⟩ => ⟨S32x272, .f32⟩
  | .hbm, ⟨21, _⟩ => ⟨S_, .f32⟩
  | .hbm, ⟨22, _⟩ => ⟨S32x272, .f32⟩
  | .hbm, ⟨23, _⟩ => ⟨S32x272, .i1⟩
  | .hbm, ⟨24, _⟩ => ⟨S32x272, .f32⟩
  | .hbm, ⟨25, _⟩ => ⟨S32x272x1, .f32⟩
  | .hbm, ⟨26, _⟩ => ⟨S32x272x8192, .f32⟩
  | .local _ .vmem, ⟨0, _⟩ => ⟨S32x272x1, .f32⟩
  | .local _ .vmem, ⟨1, _⟩ => ⟨S32x272x256, .f32⟩
  | .local _ .vmem, ⟨2, _⟩ => ⟨S32x272x256, .f32⟩
  | .local _ .vmem, ⟨3, _⟩ => ⟨S32x272x256, .f32⟩
  | .local _ .vmem, ⟨4, _⟩ => ⟨S32x272x256, .f32⟩
  | _, _ => ⟨S32x272x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S32x272x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x272x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x272x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S272x2_S1x272x2_1_2 : S272x2.BroadcastsInDim S1x272x2 (![1, 2] : Fin 2 → Fin S1x272x2.rank)
  bcast_S32x2_S32x1x2_0_2 : S32x2.BroadcastsInDim S32x1x2 (![0, 2] : Fin 2 → Fin S32x1x2.rank)
  bcast_S1x272x2_S32x272x2_0_1_2 : S1x272x2.BroadcastsInDim S32x272x2 (![0, 1, 2] : Fin 3 → Fin S32x272x2.rank)
  bcast_S32x1x2_S32x272x2_0_1_2 : S32x1x2.BroadcastsInDim S32x272x2 (![0, 1, 2] : Fin 3 → Fin S32x272x2.rank)
  reducesTo_S32x272x2_S32x272_d2 : S32x272x2.ReducesTo [2] S32x272
  h_S_ : 0 < S_.numel
  bcast_S_S32x272 : S_.BroadcastsInDim S32x272 (![] : Fin 0 → Fin S32x272.rank)
  bcast_S32x272_S32x272x1_0_1 : S32x272.BroadcastsInDim S32x272x1 (![0, 1] : Fin 2 → Fin S32x272x1.rank)
  inb_S32x272x1_S32x272x1_0_0_0 : ∀ a, (![0, 0, 0] : Fin 3 → Nat) a + S32x272x1.size a ≤ S32x272x1.size a
  h_S32x272x1 : 0 < S32x272x1.numel
  shapeCasts_S32x272x1_S32x272x1 : S32x272x1.ShapeCasts S32x272x1
  inb_S32x272x256_S32x272x256_0_0_0 : ∀ a, (![0, 0, 0] : Fin 3 → Nat) a + S32x272x256.size a ≤ S32x272x256.size a
  h_S32x272x256 : 0 < S32x272x256.numel
  broadcasts_S32x272x1_S32x272x256 : S32x272x1.Broadcasts S32x272x256
  gather_S272x2_S32x1_S32x2_1_0_n_n_0_1_12_wf : GatherDims.WF S272x2 S32x1 S32x2 [1] [0] [] [0] [] 1 ![1, 2]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x272x1.size a ≤ S32x272x1.size a
  hwx0_0 : ∀ i : grid0.Coords, EltTy.bits .f32 = 32 ∨ (Rect.block (s := S32x272x1) S32x272x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x272x256.size a ≤ S32x272x8192.size a
  hwx0_1 : ∀ i : grid0.Coords, EltTy.bits .f32 = 32 ∨ (Rect.block (s := S32x272x8192) S32x272x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x272x256.size a ≤ S32x272x8192.size a
  hwx0_2 : ∀ i : grid0.Coords, EltTy.bits .f32 = 32 ∨ (Rect.block (s := S32x272x8192) S32x272x256.size (cc0_transform_2 i) (hinb0_2 i)).WholeWords (EltTy.packing .f32)

variable [Facts₀]

def gather_S272x2_S32x1_S32x2_1_0_n_n_0_1_12 : GatherDims S272x2 S32x1 S32x2 where
  offsetDims := [1]
  collapsedSliceDims := [0]
  operandBatchingDims := []
  startIndicesBatchingDims := []
  startIndexMap := [0]
  indexVectorDim := 1
  sliceSizes := ![1, 2]
  wf := gather_S272x2_S32x1_S32x2_1_0_n_n_0_1_12_wf

abbrev win0_0 : Pipeline.Window sig grid0 :=
  Pipeline.Window.ofSpec (Memref.whole main_v16) S32x272x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x272x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S32x272x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩
abbrev S32x1 : Shape := ⟨2, ![32, 1]⟩
abbrev S32x2 : Shape := ⟨2, ![32, 2]⟩
abbrev S1x272x2 : Shape := ⟨3, ![1, 272, 2]⟩
abbrev S32x1x2 : Shape := ⟨3, ![32, 1, 2]⟩
abbrev S32x272x2 : Shape := ⟨3, ![32, 272, 2]⟩
abbrev S32x272 : Shape := ⟨2, ![32, 272]⟩
abbrev S32x272x1 : Shape := ⟨3, ![32, 272, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x272x8192, .f32⟩
  | .hbm, ⟨1, _⟩ => ⟨S272x2, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x2, .f32⟩
  | .hbm, ⟨12, _⟩ => ⟨S1x272x2, .f32⟩
  | .hbm, ⟨13, _⟩ => ⟨S32x1x2, .f32⟩
  | .hbm, ⟨14, _⟩ => ⟨S32x272x2, .f32⟩
  | .hbm, ⟨15, _⟩ => ⟨S32x272x2, .f32⟩
  | .hbm, ⟨16, _⟩ => ⟨S32x272x2, .f32⟩
  | .hbm, ⟨17, _⟩ => ⟨S32x272x2, .f32⟩
  | .hbm, ⟨18, _⟩ => ⟨S_, .f32⟩
  | .hbm, ⟨19, _⟩ => ⟨S32x272, .f32⟩
  | .hbm, ⟨20, _⟩ => ⟨S32x272, .f32⟩
  | .hbm, ⟨21, _⟩ => ⟨S_, .f32⟩
  | .hbm, ⟨22, _⟩ => ⟨S32x272, .f32⟩
  | .hbm, ⟨23, _⟩ => ⟨S32x272, .i1⟩
  | .hbm, ⟨24, _⟩ => ⟨S32x272, .f32⟩
  | .hbm, ⟨25, _⟩ => ⟨S32x272x1, .f32⟩
  | .hbm, ⟨26, _⟩ => ⟨S32x272x8192, .f32⟩
  | .hbm, ⟨27, _⟩ => ⟨S32x272x8192, .f32⟩
  | _, _ => ⟨S32x272x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S272x2_S1x272x2_1_2 : S272x2.BroadcastsInDim S1x272x2 (![1, 2] : Fin 2 → Fin S1x272x2.rank)
  bcast_S32x2_S32x1x2_0_2 : S32x2.BroadcastsInDim S32x1x2 (![0, 2] : Fin 2 → Fin S32x1x2.rank)
  bcast_S1x272x2_S32x272x2_0_1_2 : S1x272x2.BroadcastsInDim S32x272x2 (![0, 1, 2] : Fin 3 → Fin S32x272x2.rank)
  bcast_S32x1x2_S32x272x2_0_1_2 : S32x1x2.BroadcastsInDim S32x272x2 (![0, 1, 2] : Fin 3 → Fin S32x272x2.rank)
  reducesTo_S32x272x2_S32x272_d2 : S32x272x2.ReducesTo [2] S32x272
  h_S_ : 0 < S_.numel
  bcast_S_S32x272 : S_.BroadcastsInDim S32x272 (![] : Fin 0 → Fin S32x272.rank)
  bcast_S32x272_S32x272x1_0_1 : S32x272.BroadcastsInDim S32x272x1 (![0, 1] : Fin 2 → Fin S32x272x1.rank)
  bcast_S32x272x1_S32x272x8192_0_1_2 : S32x272x1.BroadcastsInDim S32x272x8192 (![0, 1, 2] : Fin 3 → Fin S32x272x8192.rank)
  gather_S272x2_S32x1_S32x2_1_0_n_n_0_1_12_wf : GatherDims.WF S272x2 S32x1 S32x2 [1] [0] [] [0] [] 1 ![1, 2]

variable [Facts₀]

def gather_S272x2_S32x1_S32x2_1_0_n_n_0_1_12 : GatherDims S272x2 S32x1 S32x2 where
  offsetDims := [1]
  collapsedSliceDims := [0]
  operandBatchingDims := []
  startIndicesBatchingDims := []
  startIndexMap := [0]
  indexVectorDim := 1
  sliceSizes := ![1, 2]
  wf := gather_S272x2_S32x1_S32x2_1_0_n_n_0_1_12_wf

class Facts : Prop extends Facts₀ where

variable [Facts]
-- ==== Proof.RowScale.lean ====
/-
  The array both programs compute, as ONE function of an array of row factors and the data array.

  The data `X` has a row for every pair (b, c) — batch item b of 32, channel c of 272 — and 8192 time samples k in
  each row. The factor array `M` has one entry per row, kept with a trailing axis of extent one. The result
  multiplies every sample by its row's factor, the factor on the left:

      scaled M X (b, c, k) = M (b, c, 0) · X (b, c, k).

  Both programs form exactly this product, one multiplication per entry and the same operand order, so no law
  of arithmetic is needed to join them: the statement holds over any float instance, the extended reals and
  their infinities included, and finiteness of the inputs plays no part.
-/
import Idealize.ShloMosaic.PureOps.Ideal
import Idealize.ShloMosaic.Lib.ValueIdx

noncomputable section

namespace Cert.RowScale

open Idealize.ShloMosaic

/-- The factors' shape: a factor for each of the 32 × 272 rows, a trailing axis of extent one. -/
abbrev Rows : Shape := ⟨3, ![32, 272, 1]⟩

/-- The data's shape: 8192 samples in each of the 32 × 272 rows. -/
abbrev Samples : Shape := ⟨3, ![32, 272, 8192]⟩

/-- The row an entry lies in, as an index of the factor array: (b, c, k) ↦ (b, c, 0). -/
abbrev rowOf (i : Samples.Idx) : Rows.Idx := fun a => match a with
  | ⟨0, _⟩ => ⟨(i 0).val, (i 0).isLt⟩
  | ⟨1, _⟩ => ⟨(i 1).val, (i 1).isLt⟩
  | ⟨2, _⟩ => ⟨0, Nat.one_pos⟩

variable {F : FTy → Type} [FloatOps F]

/-- Every sample times its row's factor, the factor on the left. -/
def scaled (M : Rows.Idx → Elt F .f32) (X : Samples.Idx → Elt F .f32) : Samples.Idx → Elt F .f32 :=
  fun i => FloatOps.mulf (M (rowOf i)) (X i)

/-- `scaled` read at an entry. -/
theorem scaled_apply (M : Rows.Idx → Elt F .f32) (X : Samples.Idx → Elt F .f32) (i : Samples.Idx) :
    scaled M X i = FloatOps.mulf (M (rowOf i)) (X i) := rfl

end Cert.RowScale

end
-- ==== Proof.HostFactors.lean ====
/-
  The row factors, as the program's host lines compute them before the multiplication, and the fact that this
  is what the multiplying region finds.

  For batch item b the host lines take a centre: the row `ids b` of the table `loc` of 272 planar positions
  (an index below zero counted from the end, that is 272 added to it, and the look-up clamped into the table).
  For channel c they form the distance from position c to that centre, the square root of the sum over the two
  coordinates of the squared differences, and compare it with the radius (the float written 0.2): the factor of row
  (b, c) is 1 when the distance is at least the radius and 0 otherwise, stored with a trailing axis of extent one.

  Nothing below looks inside that computation: it is carried as ONE function `hostFactors` of `loc` and `ids`.
-/
import proofs.«115549_j36215164240425_2_alg».proof.Proof.Gen.KernelIdeal.Frame
import Idealize.ShloMosaic.Lib.StableHlo.Run

noncomputable section

open Idealize.ShloMosaic Idealize.ShloMosaic.TcCoe Idealize.SL.Sem

namespace Cert.KernelIdeal.Factors

open Cert.KernelIdeal Cert.KernelIdeal.Gen Idealize.ShloMosaic.StableHlo

variable {F : FTy → Type} [FloatOps F]
variable (m : (ℓ : Loc nD τ sig) → Buf (Elt F) ℓ)

/-- The factor array as a function of the positions `loc` and the chosen rows `ids`: 1 where channel c lies at
    least the radius away from batch item b's centre, 0 inside the radius. -/
def hostFactors (loc : (⟨S272x2, .f32⟩ : BufTy).Contents (Elt F)) (ids : (⟨S32, .i32⟩ : BufTy).Contents (Elt F)) :
    (⟨S32x272x1, .f32⟩ : BufTy).Contents (Elt F) :=
  broadcastInDim S32x272x1 ![0, 1] bcast_S32x272_S32x272x1_0_1 (uitofp .f32 (cmpf .oge (Host.sqrt (Host.reduceAdd (mulf (subf (broadcastInDim S32x272x2 ![0, 1, 2] bcast_S1x272x2_S32x272x2_0_1_2 (broadcastInDim S1x272x2 ![1, 2] bcast_S272x2_S1x272x2_1_2 loc)) (broadcastInDim S32x272x2 ![0, 1, 2] bcast_S32x1x2_S32x272x2_0_1_2 (broadcastInDim S32x1x2 ![0, 2] bcast_S32x2_S32x1x2_0_2 (Host.gather gather_S272x2_S32x1_S32x2_1_0_n_n_0_1_12 loc (broadcastInDim S32x1 ![0] bcast_S32_S32x1_0 (select (cmpi .slt ids (broadcastInDim S32 ![] bcast_S_S32 (constantI S_ 32 0#32))) (addi ids (broadcastInDim S32 ![] bcast_S_S32 (constantI S_ 32 272#32))) ids)))))) (subf (broadcastInDim S32x272x2 ![0, 1, 2] bcast_S1x272x2_S32x272x2_0_1_2 (broadcastInDim S1x272x2 ![1, 2] bcast_S272x2_S1x272x2_1_2 loc)) (broadcastInDim S32x272x2 ![0, 1, 2] bcast_S32x1x2_S32x272x2_0_1_2 (broadcastInDim S32x1x2 ![0, 2] bcast_S32x2_S32x1x2_0_2 (Host.gather gather_S272x2_S32x1_S32x2_1_0_n_n_0_1_12 loc (broadcastInDim S32x1 ![0] bcast_S32_S32x1_0 (select (cmpi .slt ids (broadcastInDim S32 ![] bcast_S_S32 (constantI S_ 32 0#32))) (addi ids (broadcastInDim S32 ![] bcast_S_S32 (constantI S_ 32 272#32))) ids))))))) (constant S_ .f32 0x00000000#32) reducesTo_S32x272x2_S32x272_d2 h_S_)) (broadcastInDim S32x272 ![] bcast_S_S32x272 (constant S_ .f32 0x3E4CCCCD#32))))

/-- When the multiplying region is entered, the buffer it reads its factors from holds `hostFactors` of the two
    small arguments as launched: the host lines before the region, composed. -/
theorem found_factors (c : Dev nD) :
    (V m c main_v16 : (⟨S32x272x1, .f32⟩ : BufTy).Contents (Elt F))
      = hostFactors (m ((c : Thread nD τ).loc main_arg1)) (m ((c : Thread nD τ).loc main_arg2)) := by
  unfold hostFactors
  dsimp only [Gen.V]
  simp only [Gen.hostOps0, Gen.hostOps0_1, Gen.hostOps0_2, List.flatten_cons, List.flatten_nil, List.append_nil,
    List.cons_append, List.nil_append]
  after_results
  rfl

end Cert.KernelIdeal.Factors

end
-- ==== Proof.KernelScaled.lean ====
/-
  What the multiplying region leaves in the result array: `scaled` of the factor array it finds and of the data.

  The region walks the 8192 samples in 32 steps of 256. At step t it holds the whole factor array (32 × 272 × 1,
  the same block at every step) and the data's samples 256·t … 256·t + 255 of every row (32 × 272 × 256), and it
  stores, at entry (b, c, j) of a block of the same shape, the factor (b, c, 0) times the data block's entry
  (b, c, j). That block is written back over the result's samples 256·t … 256·t + 255 of every row. So what step
  t writes back is the restriction of `scaled` to those samples; sample k lies in the block of step k / 256, the
  32 blocks cover the array, and the array ends holding `scaled`.
-/
import proofs.«115549_j36215164240425_2_alg».proof.Proof.Gen.KernelIdeal.Value
import proofs.«115549_j36215164240425_2_alg».proof.Proof.RowScale
import proofs.«115549_j36215164240425_2_alg».proof.Proof.HostFactors
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Scaled

open Cert.KernelIdeal Cert.KernelIdeal.Gen Cert.KernelIdeal.Value Cert.KernelIdeal.Factors Cert.RowScale

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- Where the three windows sit at step t, decided over the 32 steps: the factors' window always at block
    (0, 0, 0); the data's and the result's at block (0, 0, t). -/
theorem block_index : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val :=
  (by decide +kernel : ∀ t : Fin grid0.N, _)

/-- One step's result block from the two blocks it holds, entry by entry: the factor of the entry's row times
    the data block's entry. -/
theorem block_apply (P0 : Vec F S32x272x1 .f32) (P1 : Vec F S32x272x256 .f32) (y : S32x272x256.Idx) :
    out0_2 P0 P1 y = FloatOps.mulf (P0 (ix2_0 y)) (P1 (ix2_1 y)) := by
  unfold out0_2
  simp only [View.ld_unit_zero (S := S32x272x1) zero_offsets, View.ld_unit_zero (S := S32x272x256) zero_offsets]
  exact canon2_eq P0 P1 y

/-- What step t writes back is the block of `scaled` at samples 256·t … 256·t + 255. -/
theorem flushed_eq (c : Dev nD) (t : Fin cfg0.N) :
    (dats m 0 c).flushed 2 t
      = ((cfg0.win 2).blk t).view.read (Elt F) (scaled (V m c main_v16) (V m c main_arg0)) := by
  rw [flushed2]
  obtain ⟨e00, e01, e02, e10, e11, e12, e20, e21, e22⟩ := block_index t
  funext j
  refine (block_apply (iblk m c 0 t) (iblk m c 1 t) j).trans ?_
  show FloatOps.mulf (V m c main_v16 (((cfg0.win 0).blk t).view.emb (ix2_0 j)))
        (V m c main_arg0 (((cfg0.win 1).blk t).view.emb (ix2_1 j)))
      = FloatOps.mulf (V m c main_v16 (rowOf (((cfg0.win 2).blk t).view.emb j)))
        (V m c main_arg0 (((cfg0.win 2).blk t).view.emb j))
  have hj0 : (j 0).val < 32 := (j 0).isLt
  have hj1 : (j 1).val < 272 := (j 1).isLt
  have hj2 : (j 2).val < 256 := (j 2).isLt
  -- the factor block's entry (b, c, 0) is the factor array's entry (b, c, 0): the row of the result's entry
  have h0 : ((cfg0.win 0).blk t).view.emb (ix2_0 j) = rowOf (((cfg0.win 2).blk t).view.emb j) := by
    funext a; apply Fin.ext
    match a with
    | ⟨0, _⟩ => show win0_0.index t (0 : Fin 3) * 32 + 1 * (j 0).val = win0_2.index t (0 : Fin 3) * 32 + 1 * (j 0).val; omega
    | ⟨1, _⟩ => show win0_0.index t (1 : Fin 3) * 272 + 1 * (j 1).val = win0_2.index t (1 : Fin 3) * 272 + 1 * (j 1).val; omega
    | ⟨2, _⟩ => show win0_0.index t (2 : Fin 3) * 1 + 1 * 0 = 0; omega
  -- the data block's entry (b, c, j) and the result block's entry (b, c, j) are both sample 256·t + j of row (b, c)
  have h1 : ((cfg0.win 1).blk t).view.emb (ix2_1 j) = ((cfg0.win 2).blk t).view.emb j := by
    funext a; apply Fin.ext
    match a with
    | ⟨0, _⟩ => show win0_1.index t (0 : Fin 3) * 32 + 1 * (j 0).val = win0_2.index t (0 : Fin 3) * 32 + 1 * (j 0).val; omega
    | ⟨1, _⟩ => show win0_1.index t (1 : Fin 3) * 272 + 1 * (j 1).val = win0_2.index t (1 : Fin 3) * 272 + 1 * (j 1).val; omega
    | ⟨2, _⟩ => show win0_1.index t (2 : Fin 3) * 256 + 1 * (j 2).val = win0_2.index t (2 : Fin 3) * 256 + 1 * (j 2).val; omega
  rw [h0, h1]

/-- An entry of the result array lies in step t's block iff, axis by axis, its coordinate lies in the block's range. -/
theorem mem_block (t : Fin cfg0.N) (i : S32x272x8192.Idx) :
    i ∈ ((cfg0.win 2).blk t).view.set ↔ ∀ a : Fin 3, win0_2.index t a * S32x272x256.size a ≤ (i a).val
      ∧ (i a).val < win0_2.index t a * S32x272x256.size a + S32x272x256.size a := by
  show i ∈ ((View.whole main_v17).slice (win0_2.rect t)).set ↔ _
  rw [View.set_slice_whole, Rect.mem_set_unit]
  exact Iff.rfl

/-- Every entry is written back by some step: sample k of a row lies in the block of step k / 256. -/
theorem covered (i : S32x272x8192.Idx) :
    ∃ t : Fin cfg0.N, (cfg0.win 2).flush t = true ∧ i ∈ ((cfg0.win 2).blk t).view.set := by
  have h0 : (i 0).val < 32 := (i 0).isLt
  have h1 : (i 1).val < 272 := (i 1).isLt
  have h2 : (i 2).val < 8192 := (i 2).isLt
  have hN : cfg0.N = 32 := N_0
  obtain ⟨t, ht⟩ : ∃ t : Fin cfg0.N, t.val = (i 2).val / 256 := ⟨⟨(i 2).val / 256, by rw [hN]; omega⟩, rfl⟩
  obtain ⟨-, -, -, -, -, -, e20, e21, e22⟩ := block_index t
  refine ⟨t, flush0_2 t, ?_⟩
  rw [mem_block]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 272 ≤ (i 1).val ∧ (i 1).val < win0_2.index t (1 : Fin 3) * 272 + 272; omega
  | ⟨2, _⟩ => show win0_2.index t (2 : Fin 3) * 256 ≤ (i 2).val ∧ (i 2).val < win0_2.index t (2 : Fin 3) * 256 + 256; omega

/-- So after the last step the result array holds `scaled` of the factor array the region found and of the data. -/
theorem final (c : Dev nD) :
    (dats m 0 c).arrAt 2 cfg0.N = scaled (V m c main_v16) (V m c main_arg0) :=
  (dats m 0 c).arrAt_eq_of_cover 2 _ (fun t _ => flushed_eq m c t) covered

/-- The program's run, read: every weakly fair execution ends with the result array at `scaled` of the host
    lines' factors of the two small arguments and of the data argument, all three arguments as launched. -/
theorem run : θ_run defs (onTc (τ := τ) (main (F := F))) ⟨m, fun _ => 0, ρ⟩ fun r => ∀ c : Dev nD,
      r.2.mem ((c : Thread nD τ).loc main_v17)
        = scaled (hostFactors (m ((c : Thread nD τ).loc main_arg1)) (m ((c : Thread nD τ).loc main_arg2)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [found_factors m c, V_main_arg0 m c])),
      (h c).2⟩)
    (run_blocks m ρ)

end Cert.KernelIdeal.Scaled

end
-- ==== Proof.ReferenceScaled.lean ====
/-
  The reference's result is `scaled` of its own factor stage and of the data.

  The reference repeats its factor array (32 × 272 × 1) along the samples, so that entry (b, c, k) of the repeated
  array is the factor (b, c, 0), and multiplies by the data entry by entry with the factor on the left:
  `scaled`, read off one entry at a time.
-/
import proofs.«115549_j36215164240425_2_alg».proof.Proof.Gen.ReferenceIdeal.Read
import proofs.«115549_j36215164240425_2_alg».proof.Proof.RowScale

noncomputable section

open Idealize.ShloMosaic Idealize.ShloMosaic.TcCoe Idealize.SL.Sem

namespace Cert.ReferenceIdeal.Scaled

open Cert.ReferenceIdeal Cert.ReferenceIdeal.Gen Cert.ReferenceIdeal.Read Cert.RowScale

variable {F : FTy → Type} [FloatOps F]

/-- Where the repeated factor array reads the factor array is the entry's row. -/
theorem repeat_index (i : S32x272x8192.Idx) : idx_main_v17 i = rowOf i :=
  funext fun a => Fin.ext (by match a with | ⟨0, _⟩ => rfl | ⟨1, _⟩ => rfl | ⟨2, _⟩ => rfl)

/-- The reference's last stage, entry by entry, is `scaled` of its factor stage and the data. -/
theorem result_eq (X : (⟨S32x272x8192, .f32⟩ : BufTy).Contents (Elt F)) (loc : (⟨S272x2, .f32⟩ : BufTy).Contents (Elt F))
    (ids : (⟨S32, .i32⟩ : BufTy).Contents (Elt F)) :
    val_main_v18 (F := F) X loc ids = scaled (val_main_v16 (F := F) loc ids) X := by
  funext i
  rw [val_main_v18_apply, val_main_v17_apply, repeat_index, scaled_apply]

end Cert.ReferenceIdeal.Scaled

end
-- ==== Proof.FactorsAgree.lean ====
/-
  The two programs compute their row factors by the same host lines: the factor array of the one, as a function
  of the positions and the chosen rows, IS the factor stage of the other. The lines agree operation by operation
  and constant by constant (the wrap of a negative row index by 272, the clamped look-up, the two-coordinate
  distance, the radius' float word), so the two composed terms are one term and nothing of it is opened.
-/
import proofs.«115549_j36215164240425_2_alg».proof.Proof.HostFactors
import proofs.«115549_j36215164240425_2_alg».proof.Proof.Gen.ReferenceIdeal.Read

noncomputable section

open Idealize.ShloMosaic Idealize.ShloMosaic.TcCoe Idealize.SL.Sem

namespace Cert.FactorsAgree

variable {F : FTy → Type} [FloatOps F]

/-- The kernel program's factor array and the reference's factor stage are the same function of `loc` and `ids`. -/
theorem factors_agree (loc : (⟨Cert.KernelIdeal.S272x2, .f32⟩ : BufTy).Contents (Elt F))
    (ids : (⟨Cert.KernelIdeal.S32, .i32⟩ : BufTy).Contents (Elt F)) :
    Cert.KernelIdeal.Factors.hostFactors (F := F) loc ids = Cert.ReferenceIdeal.Read.val_main_v16 (F := F) loc ids :=
  rfl

end Cert.FactorsAgree

end
-- ==== Proof.lean ====
/-
  Channel dropout by distance: every time sample of a channel is multiplied by that channel's factor, the factor
  being 0 when the channel's planar position lies within a fixed radius of a centre chosen per batch item and 1
  otherwise. The data `X` is 32 × 272 × 8192 (batch item, channel, sample), `loc` holds the 272 positions and
  `ids` the row of `loc` taken as centre for each of the 32 batch items.

  Both programs compute the 32 × 272 factors by the same lines of plain array operations (wrap a negative row
  index, look the centre up, distance over the two coordinates, compare with the radius, 1 or 0), operation by
  operation and constant by constant; they differ only in how the product is formed. The reference repeats the
  factors along the 8192 samples and multiplies whole arrays. The other program multiplies in 32 steps of 256
  samples, holding the factor array and one 32 × 272 × 256 block of the data at a time and writing each product
  block back over the same samples of the result. Entry (b, c, k) of either result is

      factor (b, c) · X (b, c, k),

  one multiplication with the factor on the left, so the two results are equal entry by entry on the extended
  reals — no law of arithmetic is used, infinite entries are no exception, and the inputs' finiteness is never
  called on. The common value is stated once (`Cert.RowScale.scaled`) and each side is shown to be it:

    * Proof/RowScale.lean — `scaled M X (b, c, k) = M (b, c, 0) · X (b, c, k)`;
    * Proof/HostFactors.lean — the factor array as one function of `loc` and `ids`, and that the multiplying steps
      find exactly it;
    * Proof/KernelScaled.lean — what step t writes back is `scaled` on samples 256·t … 256·t + 255, the 32 blocks
      cover the result, so the result array ends at `scaled`;
    * Proof/ReferenceScaled.lean — the reference's last stage is `scaled` of its own factor stage;
    * Proof/FactorsAgree.lean — the two factor computations are one term.

  Each program also terminates on every weakly fair execution without a fault and leaves its three arguments as
  they were; the word-level program and its reading over the extended reals have the same text (no rewrite was
  applied between them), so that conjunct asks nothing.
-/
import proofs.«115549_j36215164240425_2_alg».proof.Defs
import proofs.«115549_j36215164240425_2_alg».proof.Proof.Gen.Kernel
import proofs.«115549_j36215164240425_2_alg».proof.Proof.Gen.Kernel.Skeleton
import proofs.«115549_j36215164240425_2_alg».proof.Proof.Gen.Kernel.Launch
import proofs.«115549_j36215164240425_2_alg».proof.Proof.Gen.Kernel.Points
import proofs.«115549_j36215164240425_2_alg».proof.Proof.Gen.Kernel.Frame
import proofs.«115549_j36215164240425_2_alg».proof.Proof.Gen.KernelIdeal
import proofs.«115549_j36215164240425_2_alg».proof.Proof.Gen.KernelIdeal.Skeleton
import proofs.«115549_j36215164240425_2_alg».proof.Proof.Gen.KernelIdeal.Launch
import proofs.«115549_j36215164240425_2_alg».proof.Proof.Gen.KernelIdeal.Points
import proofs.«115549_j36215164240425_2_alg».proof.Proof.Gen.KernelIdeal.Frame
import proofs.«115549_j36215164240425_2_alg».proof.Proof.Gen.ReferenceIdeal
import proofs.«115549_j36215164240425_2_alg».proof.Proof.Gen.Pre_finite_inputs
import proofs.«115549_j36215164240425_2_alg».proof.Proof.Gen.KernelIdeal.Value
import proofs.«115549_j36215164240425_2_alg».proof.Proof.Gen.ReferenceIdeal.Run
import proofs.«115549_j36215164240425_2_alg».proof.Proof.Gen.ReferenceIdeal.Read
import proofs.«115549_j36215164240425_2_alg».proof.Proof.KernelScaled
import proofs.«115549_j36215164240425_2_alg».proof.Proof.ReferenceScaled
import proofs.«115549_j36215164240425_2_alg».proof.Proof.FactorsAgree
import Idealize.ShloMosaic.Adequacy
import Idealize.ShloMosaic.Init

noncomputable section

namespace Cert.Proof

open Idealize.ShloMosaic Idealize.SL.Sem

/-- The word-level program runs to the end without a fault and leaves its arguments as they were. -/
theorem frame_words : Cert.frame_Kernel := fun m ρ _ => Cert.Kernel.Gen.frame m ρ

/-- So does the same program read over the extended reals. -/
theorem frame_reals : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the word-level program and its reading over the extended reals. -/
theorem preserves : Cert.preserves_Kernel_KernelIdeal := trivial

/-- From memories that agree on `X`, `loc` and `ids`, both programs end with the result array at `scaled` of the
    host lines' factors and `X`: the blockwise program by its run, the reference by reading its last stage entry
    by entry and the two factor computations being one term. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v18_eq,
    Cert.ReferenceIdeal.Scaled.result_eq, ← Cert.FactorsAgree.factors_agree]

theorem claim : Cert.Claim := ⟨Cert.Kernel.Gen.facts, Cert.KernelIdeal.Gen.facts, Cert.ReferenceIdeal.Gen.facts, Cert.Pre_finite_inputs.Gen.facts,
  frame_words, frame_reals, frame_reference, preserves, algebraic⟩

end Cert.Proof

end
